-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S256 .f32) (main_arg4 : FVec F S3x256 .f32) (main_arg5 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S3x256 : Shape := ⟨2, ![3, 256]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S1x256 : Shape := ⟨2, ![1, 256]⟩
abbrev S1x3 : Shape := ⟨2, ![1, 3]⟩
abbrev S50000x1 : Shape := ⟨2, ![50000, 1]⟩
abbrev S50000x3 : Shape := ⟨2, ![50000, 3]⟩
abbrev S2000x128 : Shape := ⟨2, ![2000, 128]⟩
abbrev S2000x1 : Shape := ⟨2, ![2000, 1]⟩
abbrev S2000x3 : Shape := ⟨2, ![2000, 3]⟩
abbrev S2000x256 : Shape := ⟨2, ![2000, 256]⟩

abbrev nBuf : Space → Nat
  | .hbm => 33
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S3x256, .f32⟩
  | .hbm, ⟨5, _⟩ => ⟨S3, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S1x256, .f32⟩
  | .hbm, ⟨30, _⟩ => ⟨S1x3, .f32⟩
  | .hbm, ⟨31, _⟩ => ⟨S50000x1, .f32⟩
  | .hbm, ⟨32, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S256x128, .f32⟩
  | .local _ .vmem, ⟨5, _⟩ => ⟨S1x256, .f32⟩
  | .local _ .vmem, ⟨6, _⟩ => ⟨S3x256, .f32⟩
  | .local _ .vmem, ⟨7, _⟩ => ⟨S1x3, .f32⟩
  | .local _ .vmem, ⟨8, _⟩ => ⟨S2000x3, .f32⟩
  | .local _ .vmem, ⟨9, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S256_S1x256 : S256.ShapeCasts S1x256
  shapeCasts_S3_S1x3 : S3.ShapeCasts S1x3
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S3x256_S3x256_0_0 : ∀ a, (![0, 0] : Fin 2 → Nat) a + S3x256.size a ≤ S3x256.size a
  h_S3x256 : 0 < S3x256.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S256x128_S2000x256_1_1_0_0_n_n_wf : DotDims.WF S2000x128 S256x128 S2000x256 [1] [1] [0] [0] [] []
  dot_S2000x256_S3x256_S2000x3_1_1_0_0_n_n_wf : DotDims.WF S2000x256 S3x256 S2000x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .f32 = 32 ∨ (Rect.block (s := S3x256) S3x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x3.size a ≤ S50000x3.size a
  hwx0_6 : ∀ i : grid0.Coords, EltTy.bits .f32 = 32 ∨ (Rect.block (s := S50000x3) S2000x3.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def dot_S2000x256_S3x256_S2000x3_1_1_0_0_n_n : DotDims S2000x256 S3x256 S2000x3 where
  lhsContracting := [1]
  rhsContracting := [1]
  lhsNonContracting := [0]
  rhsNonContracting := [0]
  lhsBatch := []
  rhsBatch := []
  wf := dot_S2000x256_S3x256_S2000x3_1_1_0_0_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2000x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S3x256 : Shape := ⟨2, ![3, 256]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S256x3 : Shape := ⟨2, ![256, 3]⟩
abbrev S50000x3 : Shape := ⟨2, ![50000, 3]⟩
abbrev S1x3 : Shape := ⟨2, ![1, 3]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S3x256, .f32⟩
  | .hbm, ⟨5, _⟩ => ⟨S3, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S256x3, .f32⟩
  | .hbm, ⟨41, _⟩ => ⟨S50000x3, .f32⟩
  | .hbm, ⟨42, _⟩ => ⟨S1x3, .f32⟩
  | .hbm, ⟨43, _⟩ => ⟨S50000x3, .f32⟩
  | .hbm, ⟨44, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S3x256_S256x3_1_0 : S3x256.Transposes [1, 0] S256x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x3_S50000x3_1_0_0_1_n_n_wf : DotDims.WF S50000x256 S256x3 S50000x3 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x3_S50000x3_1_0_0_1_n_n : DotDims S50000x256 S256x3 S50000x3 where
  lhsContracting := [1]
  rhsContracting := [0]
  lhsNonContracting := [0]
  rhsNonContracting := [1]
  lhsBatch := []
  rhsBatch := []
  wf := dot_S50000x256_S256x3_S50000x3_1_0_0_1_n_n_wf

class Facts : Prop extends Facts₀ where

variable [Facts]
-- ==== Proof.MeanDense.lean ====
/-
  The function both programs compute, one output row at a time.

  A node's aggregated feature is the sum of its incoming messages divided by the number of them, the count
  raised to at least one so that a node without incoming edges keeps the zero sum: `mean s cnt k = s k / max cnt 1`.
  Two dense layers follow: `hidden q = Σ_k mean k · W1[q, k] + b1[q]` over the 128 features and
  `out j = Σ_q hidden q · W2[j, q] + b2[j]` over the 256 hidden units. Everything is read on the extended reals:
  the quotient is the ideal instance's `Ideal.div`, sums and products are EReal's. Row `r` of the result depends
  on row `r` of the sums and on the count of node `r` only, which is why a block of rows of the result is a
  function of the same block of rows of the inputs.
-/
import Idealize.ShloMosaic.PureOps.Ideal

noncomputable section

open scoped BigOperators

namespace Cert.MeanDense

open Idealize.ShloMosaic

/-- The f32 word of 1.0 read as an extended real. Both programs spell the same word, so it is never evaluated. -/
abbrev one : EReal := Ideal.ofBits .f32 0x3F800000#32

/-- Feature `k` of a node's mean message: its summed feature over its count, the count raised to at least one. -/
def mean (s : Fin 128 → EReal) (cnt : EReal) (k : Fin 128) : EReal := Ideal.div (s k) (max cnt one)

/-- Hidden unit `q`: the first dense layer on the mean message. -/
def hidden (s : Fin 128 → EReal) (cnt : EReal) (w1 : Fin 256 → Fin 128 → EReal) (b1 : Fin 256 → EReal) (q : Fin 256) : EReal :=
  (∑ k : Fin 128, mean s cnt k * w1 q k) + b1 q

/-- Output `j`: the second dense layer on the hidden units. -/
def out (s : Fin 128 → EReal) (cnt : EReal) (w1 : Fin 256 → Fin 128 → EReal) (b1 : Fin 256 → EReal)
    (w2 : Fin 3 → Fin 256 → EReal) (b2 : Fin 3 → EReal) (j : Fin 3) : EReal :=
  (∑ q : Fin 256, hidden s cnt w1 b1 q * w2 j q) + b2 j

end Cert.MeanDense

end
-- ==== Proof.LibMatmulNT.lean ====
/-
  A matrix product whose right operand is contracted along its SECOND axis: x : [M, K] against y : [N, K],
  the product x · yᵀ. Into the zero accumulator, on the extended reals, its entry (p, q) is
  `Σ_k x[p, k] · y[q, k]`. Stated for any dimension-numbers record with these fields (contracting axis 1 of both
  operands, free axis 0 of both, no batch axis) and any sizes M, K, N.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The contraction has one axis … -/
theorem contr_rank (D : DotDims ⟨2, ![M, K]⟩ ⟨2, ![N, K]⟩ ⟨2, ![M, N]⟩) (hlc : D.lhsContracting = [1]) :
    D.contr.rank = 1 := by
  rw [D.rank_contr, hlc]; rfl

/-- … of extent K, the left operand's second extent. -/
theorem contr_size (D : DotDims ⟨2, ![M, K]⟩ ⟨2, ![N, K]⟩ ⟨2, ![M, N]⟩) (hlc : D.lhsContracting = [1]) :
    D.contr.size ⟨0, by rw [contr_rank D hlc]; exact Nat.one_pos⟩ = K := by
  obtain ⟨lc, rc, ln, rn, lb, rb, wf⟩ := D
  dsimp only at hlc
  subst hlc
  rfl

/-- The left operand's row is the result's row. -/
theorem lhsIdx_row (D : DotDims ⟨2, ![M, K]⟩ ⟨2, ![N, K]⟩ ⟨2, ![M, N]⟩)
    (hln : D.lhsNonContracting = [0]) (hlb : D.lhsBatch = [])
    (j : (⟨2, ![M, N]⟩ : Shape).Idx) (kk : D.contr.Idx) : (D.lhsIdx j kk 0).val = (j 0).val := by
  obtain ⟨lc, rc, ln, rn, lb, rb, wf⟩ := D
  dsimp only at hln hlb
  subst hln hlb
  unfold DotDims.lhsIdx
  rw [dif_neg List.not_mem_nil, dif_pos (List.mem_singleton.mpr rfl)]
  rfl

/-- The right operand's row is the result's column. -/
theorem rhsIdx_row (D : DotDims ⟨2, ![M, K]⟩ ⟨2, ![N, K]⟩ ⟨2, ![M, N]⟩)
    (hln : D.lhsNonContracting = [0]) (hrn : D.rhsNonContracting = [0]) (hlb : D.lhsBatch = []) (hrb : D.rhsBatch = [])
    (j : (⟨2, ![M, N]⟩ : Shape).Idx) (kk : D.contr.Idx) : (D.rhsIdx j kk 0).val = (j 1).val := by
  obtain ⟨lc, rc, ln, rn, lb, rb, wf⟩ := D
  dsimp only at hln hrn hlb hrb
  subst hln hrn hlb hrb
  unfold DotDims.rhsIdx
  rw [dif_neg List.not_mem_nil, dif_pos (List.mem_singleton.mpr rfl)]
  rfl

/-- Entry (p, q) of x · yᵀ accumulated into zeros is the sum over the shared axis of x[p, k] · y[q, k]. -/
theorem matmul_nt_apply (D : DotDims ⟨2, ![M, K]⟩ ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (prec : Option ContractPrecision) {φ₁ φ₂ : FTy}
    (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q)
      = ∑ k : Fin K, x (ix2 p k) * y (ix2 q k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  refine congrArg₂ (· * ·) (congrArg x (funext fun a => Fin.ext ?_)) (congrArg y (funext fun a => Fin.ext ?_))
  · match a with
    | ⟨0, _⟩ => exact lhsIdx_row D hln hlb _ _
    | ⟨1, _⟩ => exact (D.lhsIdx_val_of_single hlc _ _).trans hk
  · match a with
    | ⟨0, _⟩ => exact rhsIdx_row D hln hrn hlb hrb _ _
    | ⟨1, _⟩ => exact (D.rhsIdx_val_of_single hrc _ _).trans hk

end Cert.LibMatmulNT

end
-- ==== Proof.KernelPayload.lean ====
/-
  What the kernel body stores, read at one entry. The body's one payload is a block of 2000 output rows computed
  from the same 2000 rows of the summed messages and of the counts and from the whole weights and biases:
  it raises the counts to at least one, broadcasts them along the 128 features, divides, multiplies by W1ᵀ on the
  matrix unit into zeros, adds the bias row, multiplies by W2ᵀ into zeros and adds the second bias row. On the
  extended reals the narrowing to bf16 before each product is the identity, so entry (p, j) of the payload is
  `MeanDense.out` of row p of the block.
-/
import proofs.«172255_j2070174236908_2_alg».proof.Proof.Gen.KernelIdeal.Skeleton
import proofs.«172255_j2070174236908_2_alg».proof.Proof.MeanDense
import proofs.«172255_j2070174236908_2_alg».proof.Proof.LibMatmulNT
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- A column [2000, 1] broadcast along the 128 features reads its row's entry. -/
theorem column_along_features (v : FVec Ideal S2000x1 .f32) (h : S2000x1.Broadcasts S2000x128) (p : Fin 2000) (k : Fin 128) :
    broadcastTo S2000x128 v h (ix2 p k) = v (ix2 p 0) :=
  broadcastTo_apply v h (ix2 p k) (ix2 p 0) (fun a => by
    match a with
    | ⟨0, _⟩ => show p.val = if (2000 : Nat) = 1 then 0 else p.val; rw [if_neg (by decide)]
    | ⟨1, _⟩ => show 0 = if (1 : Nat) = 1 then 0 else k.val; rw [if_pos rfl])

/-- The bias row [1, 256] broadcast down the 2000 rows reads its column's entry. -/
theorem row_down_hidden (v : FVec Ideal S1x256 .f32) (h : S1x256.Broadcasts S2000x256) (p : Fin 2000) (q : Fin 256) :
    broadcastTo S2000x256 v h (ix2 p q) = v (ix2 0 q) :=
  broadcastTo_apply v h (ix2 p q) (ix2 0 q) (fun a => by
    match a with
    | ⟨0, _⟩ => show 0 = if (1 : Nat) = 1 then 0 else p.val; rw [if_pos rfl]
    | ⟨1, _⟩ => show q.val = if (256 : Nat) = 1 then 0 else q.val; rw [if_neg (by decide)])

/-- The bias row [1, 3] broadcast down the 2000 rows reads its column's entry. -/
theorem row_down_out (v : FVec Ideal S1x3 .f32) (h : S1x3.Broadcasts S2000x3) (p : Fin 2000) (j : Fin 3) :
    broadcastTo S2000x3 v h (ix2 p j) = v (ix2 0 j) :=
  broadcastTo_apply v h (ix2 p j) (ix2 0 j) (fun a => by
    match a with
    | ⟨0, _⟩ => show 0 = if (1 : Nat) = 1 then 0 else p.val; rw [if_pos rfl]
    | ⟨1, _⟩ => show j.val = if (3 : Nat) = 1 then 0 else j.val; rw [if_neg (by decide)])

/-- The mean message of row p, feature k: the summed feature over the count raised to at least one. -/
theorem mean_apply (x1 : Vec Ideal S2000x1 .f32) (x0 : Vec Ideal S2000x128 .f32)
    (h1 : S2000x1.ShapeCasts S2000x1) (h0 : S2000x128.ShapeCasts S2000x128) (hb : S2000x1.Broadcasts S2000x128)
    (p : Fin 2000) (k : Fin 128) :
    divf (shapeCast S2000x128 x0 h0)
        (broadcastTo S2000x128 (maximumf (shapeCast S2000x1 x1 h1) (broadcast S2000x1 (Scalar.ofBits (F := Ideal) .f32 0x3F800000#32))) hb) (ix2 p k)
      = MeanDense.mean (fun k => x0 (ix2 p k)) (x1 (ix2 p 0)) k := by
  rw [divf_apply, column_along_features, shapeCast_self, maximumf_apply, shapeCast_self]
  rfl

/-- Entry (p, j) of the stored block is the two dense layers on row p's mean message. -/
theorem pay_apply (x1 : Vec Ideal S2000x1 .f32) (x0 : Vec Ideal S2000x128 .f32) (x2 : Vec Ideal S256x128 .f32)
    (x3 : Vec Ideal S1x256 .f32) (x4 : Vec Ideal S3x256 .f32) (x5 : Vec Ideal S1x3 .f32) (p : Fin 2000) (j : Fin 3) :
    k0_pay1 (F := Ideal) x1 x0 x2 x3 x4 x5 (ix2 p j)
      = MeanDense.out (fun k => x0 (ix2 p k)) (x1 (ix2 p 0)) (fun q k => x2 (ix2 q k)) (fun q => x3 (ix2 0 q))
          (fun j q => x4 (ix2 j q)) (fun j => x5 (ix2 0 j)) j := by
  unfold k0_pay1 MeanDense.out
  refine (addf_apply _ _ _).trans (congrArg₂ (· + ·) ?_ ?_)
  · refine (LibMatmulNT.matmul_nt_apply dot_S2000x256_S3x256_S2000x3_1_1_0_0_n_n rfl rfl rfl rfl rfl rfl none _ _ p j).trans ?_
    refine Finset.sum_congr rfl fun q _ => congrArg₂ (· * ·) ?_ rfl
    unfold MeanDense.hidden
    refine (addf_apply _ _ _).trans (congrArg₂ (· + ·) ?_ ?_)
    · refine (LibMatmulNT.matmul_nt_apply dot_S2000x128_S256x128_S2000x256_1_1_0_0_n_n rfl rfl rfl rfl rfl rfl none _ _ p q).trans ?_
      exact Finset.sum_congr rfl fun k _ => congrArg₂ (· * ·) (mean_apply x1 x0 _ _ _ p k) rfl
    · exact (row_down_hidden _ _ p q).trans (congrFun (shapeCast_self x3 _) _)
  · exact (row_down_out _ _ p j).trans (congrFun (shapeCast_self x5 _) _)

end Cert.KernelIdeal.Payload

end
-- ==== Proof.KernelRows.lean ====
/-
  The kernel's whole result as one function of the six arrays its region finds.

  The grid has 25 points; point t stages rows 2000·t … 2000·t + 1999 of the summed messages and of the counts
  (kept as a column [50000, 1]), the whole of both weight matrices and of both bias rows, and writes back rows
  2000·t … 2000·t + 1999 of the result. Since an output row depends only on its own row of the sums and its own
  count (`MeanDense.out`), the block a point writes is that block of ONE whole-array function, `rows`; the 25
  blocks tile the 50000 rows, so after the run the result array is `rows`.
-/
import proofs.«172255_j2070174236908_2_alg».proof.Proof.Gen.KernelIdeal.Value
import proofs.«172255_j2070174236908_2_alg».proof.Proof.KernelPayload

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- Entry (r, j) of the result from the summed messages, the counts as a column, the weights and the bias rows. -/
def entry (S : S50000x128.Idx → EReal) (C : S50000x1.Idx → EReal) (W1 : S256x128.Idx → EReal) (B1 : S1x256.Idx → EReal)
    (W2 : S3x256.Idx → EReal) (B2 : S1x3.Idx → EReal) (r : Fin 50000) (j : Fin 3) : EReal :=
  MeanDense.out (fun k => S (ix2 r k)) (C (ix2 r 0)) (fun q k => W1 (ix2 q k)) (fun q => B1 (ix2 0 q))
    (fun j q => W2 (ix2 j q)) (fun j => B2 (ix2 0 j)) j

/-- The whole result array. -/
def rows (S : S50000x128.Idx → EReal) (C : S50000x1.Idx → EReal) (W1 : S256x128.Idx → EReal) (B1 : S1x256.Idx → EReal)
    (W2 : S3x256.Idx → EReal) (B2 : S1x3.Idx → EReal) : S50000x3.Idx → EReal :=
  fun i => entry S C W1 B1 W2 B2 ⟨(i 0).val, (i 0).isLt⟩ ⟨(i 1).val, (i 1).isLt⟩

/-- A stored block's entry (p, j) is the result's entry (r, j) once row p of the staged sums and counts is row r of
    the arrays and the staged weights and biases are the whole arrays. -/
theorem block_entry (S : S50000x128.Idx → EReal) (C : S50000x1.Idx → EReal) (W1 : S256x128.Idx → EReal)
    (B1 : S1x256.Idx → EReal) (W2 : S3x256.Idx → EReal) (B2 : S1x3.Idx → EReal)
    (x0 : Vec Ideal S2000x128 .f32) (x1 : Vec Ideal S2000x1 .f32) (x2 : Vec Ideal S256x128 .f32)
    (x3 : Vec Ideal S1x256 .f32) (x4 : Vec Ideal S3x256 .f32) (x5 : Vec Ideal S1x3 .f32)
    (r : Fin 50000) (p : Fin 2000) (j : Fin 3)
    (h0 : ∀ k : Fin 128, x0 (ix2 p k) = S (ix2 r k)) (h1 : x1 (ix2 p 0) = C (ix2 r 0))
    (h2 : x2 = W1) (h3 : x3 = B1) (h4 : x4 = W2) (h5 : x5 = B2) :
    k0_pay1 (F := Ideal) x1 x0 x2 x3 x4 x5 (ix2 p j) = entry S C W1 B1 W2 B2 r j := by
  subst h2 h3 h4 h5
  refine (Payload.pay_apply x1 x0 x2 x3 x4 x5 p j).trans ?_
  unfold entry
  rw [h1, funext h0]

/-- The result at (r, j) is `entry` there. -/
theorem rows_apply (S : S50000x128.Idx → EReal) (C : S50000x1.Idx → EReal) (W1 : S256x128.Idx → EReal) (B1 : S1x256.Idx → EReal)
    (W2 : S3x256.Idx → EReal) (B2 : S1x3.Idx → EReal) (r : Fin 50000) (j : Fin 3) :
    rows S C W1 B1 W2 B2 (ix2 r j) = entry S C W1 B1 W2 B2 r j := rfl

theorem hz : (![0, 0] : Fin 2 → Nat) = fun _ => 0 := funext fun a => by fin_cases a <;> rfl

/-- The printed index maps over the 25 points: the row-blocked windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The windows' blocks read off ANY array: which rows of the array a point's block holds -/

/-- Row p of point t's block of a [50000, 128] array is row 2000·t + p of the array. -/
theorem read_sums (A : S50000x128.Idx → EReal) (t : Fin cfg0.N) (p : Fin 2000) (k : Fin 128) (hb : t.val * 2000 + p.val < 50000) :
    ((cfg0.win 0).blk t).view.read (Elt Ideal) A (ix2 p k) = A (ix2 ⟨t.val * 2000 + p.val, hb⟩ k) := by
  obtain ⟨e00, e01, -⟩ := idx_facts t
  have hk : k.val < 128 := k.isLt
  show A (((cfg0.win 0).blk t).view.emb (ix2 p k)) = _
  refine congrArg A (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row p of point t's block of a [50000, 1] column is row 2000·t + p of the column. -/
theorem read_counts (A : S50000x1.Idx → EReal) (t : Fin cfg0.N) (p : Fin 2000) (hb : t.val * 2000 + p.val < 50000) :
    ((cfg0.win 1).blk t).view.read (Elt Ideal) A (ix2 p 0) = A (ix2 ⟨t.val * 2000 + p.val, hb⟩ 0) := by
  obtain ⟨-, -, e10, e11, -⟩ := idx_facts t
  show A (((cfg0.win 1).blk t).view.emb (ix2 p 0)) = _
  refine congrArg A (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

/-- The block of the first weight matrix is the whole matrix at every point. -/
theorem read_w1 (A : S256x128.Idx → EReal) (t : Fin cfg0.N) :
    (((cfg0.win 2).blk t).view.read (Elt Ideal) A : S256x128.Idx → EReal) = A := by
  obtain ⟨-, -, -, -, e20, e21, -⟩ := idx_facts t
  funext y
  have h0 : (y 0).val < 256 := (y 0).isLt
  have h1 : (y 1).val < 128 := (y 1).isLt
  show A (((cfg0.win 2).blk t).view.emb y) = A y
  refine congrArg A (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The block of the first bias row is the whole row. -/
theorem read_b1 (A : S1x256.Idx → EReal) (t : Fin cfg0.N) :
    (((cfg0.win 3).blk t).view.read (Elt Ideal) A : S1x256.Idx → EReal) = A := by
  obtain ⟨-, -, -, -, -, -, e30, e31, -⟩ := idx_facts t
  funext y
  have h0 : (y 0).val < 1 := (y 0).isLt
  have h1 : (y 1).val < 256 := (y 1).isLt
  show A (((cfg0.win 3).blk t).view.emb y) = A y
  refine congrArg A (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The block of the second weight matrix is the whole matrix. -/
theorem read_w2 (A : S3x256.Idx → EReal) (t : Fin cfg0.N) :
    (((cfg0.win 4).blk t).view.read (Elt Ideal) A : S3x256.Idx → EReal) = A := by
  obtain ⟨-, -, -, -, -, -, -, -, e40, e41, -⟩ := idx_facts t
  funext y
  have h0 : (y 0).val < 3 := (y 0).isLt
  have h1 : (y 1).val < 256 := (y 1).isLt
  show A (((cfg0.win 4).blk t).view.emb y) = A y
  refine congrArg A (funext fun a => Fin.ext ?_)
  match a with
  | ⟨0, _⟩ => show win0_4.index t (0 : Fin 2) * 3 + 1 * (y 0).val = (y 0).val; omega
  | ⟨1, _⟩ => show win0_4.index t (1 : Fin 2) * 256 + 1 * (y 1).val = (y 1).val; omega

/-- The block of the second bias row is the whole row. -/
theorem read_b2 (A : S1x3.Idx → EReal) (t : Fin cfg0.N) :
    (((cfg0.win 5).blk t).view.read (Elt Ideal) A : S1x3.Idx → EReal) = A := by
  obtain ⟨-, -, -, -, -, -, -, -, -, -, e50, e51, -⟩ := idx_facts t
  funext y
  have h0 : (y 0).val < 1 := (y 0).isLt
  have h1 : (y 1).val < 3 := (y 1).isLt
  show A (((cfg0.win 5).blk t).view.emb y) = A y
  refine congrArg A (funext fun a => Fin.ext ?_)
  match a with
  | ⟨0, _⟩ => show win0_5.index t (0 : Fin 2) * 1 + 1 * (y 0).val = (y 0).val; omega
  | ⟨1, _⟩ => show win0_5.index t (1 : Fin 2) * 3 + 1 * (y 1).val = (y 1).val; omega

/-- Row p of point t's block of a [50000, 3] array is row 2000·t + p of the array. -/
theorem read_out (G : S50000x3.Idx → EReal) (t : Fin cfg0.N) (p : Fin 2000) (j : Fin 3) (hb : t.val * 2000 + p.val < 50000) :
    ((cfg0.win 6).blk t).view.read (Elt Ideal) G (ix2 p j) = G (ix2 ⟨t.val * 2000 + p.val, hb⟩ j) := by
  obtain ⟨-, -, -, -, -, -, -, -, -, -, -, -, e60, e61⟩ := idx_facts t
  have hj : j.val < 3 := j.isLt
  show G (((cfg0.win 6).blk t).view.emb (ix2 p j)) = _
  refine congrArg G (funext fun a => Fin.ext ?_)
  match a with
  | ⟨0, _⟩ => show win0_6.index t (0 : Fin 2) * 2000 + 1 * p.val = t.val * 2000 + p.val; omega
  | ⟨1, _⟩ => show win0_6.index t (1 : Fin 2) * 3 + 1 * j.val = j.val; omega

/-- The output window's blocks are whole, so what a point writes back of its staging buffer is the buffer. -/
theorem cut_apply (X : S2000x3.Idx → EReal) (t : Fin cfg0.N) (p : Fin 2000) (j : Fin 3) :
    (cfg0.win 6).cut (grid0.coords t) X (ix2 p j) = X (ix2 p j) := by
  show X ((cfg0.win 6).xinj (grid0.coords t) (ix2 p j)) = _
  exact congrArg X (funext fun a => by match a with | ⟨0, _⟩ => rfl | ⟨1, _⟩ => rfl)

variable (m : (ℓ : Loc nD τ sig) → Buf (Elt Ideal) ℓ) (ρ : Dev nD → PrngReg)

/-- The result as the region's arrays give it. -/
abbrev result (c : Dev nD) : S50000x3.Idx → EReal :=
  rows (V m c main_v13) (V m c main_v20) (V m c main_arg2) (V m c main_v18) (V m c main_arg4) (V m c main_v19)

/-- Entry (p, j) of the block point t stores is the result's entry (2000·t + p, j): the staged rows of the sums and
    counts are rows 2000·t + p of their arrays, the staged weights and bias rows the whole arrays. -/
theorem stored_entry (c : Dev nD) (t : Fin cfg0.N) (p : Fin 2000) (j : Fin 3) (hb : t.val * 2000 + p.val < 50000) :
    k0_pay1 (F := Ideal) (iblk m c 1 t) (iblk m c 0 t) (iblk m c 2 t) (iblk m c 3 t) (iblk m c 4 t) (iblk m c 5 t) (ix2 p j)
      = entry (V m c main_v13) (V m c main_v20) (V m c main_arg2) (V m c main_v18) (V m c main_arg4) (V m c main_v19)
          ⟨t.val * 2000 + p.val, hb⟩ j := by
  refine block_entry (V m c main_v13) (V m c main_v20) (V m c main_arg2) (V m c main_v18) (V m c main_arg4) (V m c main_v19)
    (iblk m c 0 t) (iblk m c 1 t) (iblk m c 2 t) (iblk m c 3 t) (iblk m c 4 t) (iblk m c 5 t)
    ⟨t.val * 2000 + p.val, hb⟩ p j ?_ ?_ ?_ ?_ ?_ ?_
  · intro k
    unfold iblk
    exact read_sums _ t p k hb
  · unfold iblk
    exact read_counts _ t p hb
  · unfold iblk
    exact read_w1 _ t
  · unfold iblk
    exact read_b1 _ t
  · unfold iblk
    exact read_w2 _ t
  · unfold iblk
    exact read_b2 _ t

/-- What point t writes back is block t of the result. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz]
  simp only [View.ld_unit_zero (S := S2000x1) hz, View.ld_unit_zero (S := S2000x128) hz,
    View.ld_unit_zero (S := S256x128) hz, View.ld_unit_zero (S := S1x256) hz, View.ld_unit_zero (S := S3x256) hz,
    View.ld_unit_zero (S := S1x3) hz]
  have ht : t.val < 25 := lt_of_lt_of_eq t.isLt N_0
  funext y
  obtain ⟨p, j, rfl⟩ : ∃ (p : Fin 2000) (j : Fin 3), y = ix2 p j := ⟨y 0, y 1, eq_ix2 y⟩
  have hp : p.val < 2000 := p.isLt
  have hb : t.val * 2000 + p.val < 50000 := by omega
  refine (cut_apply _ t p j).trans ?_
  refine (stored_entry m c t p j hb).trans ?_
  exact ((read_out (result m c) t p j hb).trans (rows_apply _ _ _ _ _ _ _ j)).symm

/-- An index of the result is in point t's block iff each coordinate is in the block's range on its axis. -/
theorem mem_blk (t : Fin cfg0.N) (i : S50000x3.Idx) :
    i ∈ ((cfg0.win 6).blk t).view.set ↔ ∀ a : Fin 2, win0_6.index t a * S2000x3.size a ≤ (i a).val ∧ (i a).val < win0_6.index t a * S2000x3.size a + S2000x3.size a := by
  show i ∈ ((View.whole main_v21).slice (win0_6.rect t)).set ↔ _
  rw [View.set_slice_whole, Rect.mem_set_unit]
  exact Iff.rfl

/-- Every row of the result lies in the block of the point numbered by its row over 2000. -/
theorem cover (i : S50000x3.Idx) : ∃ t : Fin cfg0.N, (cfg0.win 6).flush t = true ∧ i ∈ ((cfg0.win 6).blk t).view.set := by
  have hi0 : (i 0).val < 50000 := (i 0).isLt
  have hi1 : (i 1).val < 3 := (i 1).isLt
  have hN : cfg0.N = 25 := N_0
  refine ⟨⟨(i 0).val / 2000, by rw [hN]; omega⟩, flush0_6 _, ?_⟩
  rw [mem_blk]
  obtain ⟨-, -, -, -, -, -, -, -, -, -, -, -, e60, e61⟩ := idx_facts ⟨(i 0).val / 2000, by rw [hN]; omega⟩
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, _⟩ (1 : Fin 2) * 3 ≤ (i 1).val ∧ (i 1).val < win0_6.index ⟨(i 0).val / 2000, _⟩ (1 : Fin 2) * 3 + 3
    rw [e61]; omega

/-- After the run the result array is `rows` of the region's arrays. -/
theorem final (c : Dev nD) : (dats m 0 c).arrAt 6 cfg0.N = result m c :=
  (dats m 0 c).arrAt_eq_of_cover 6 (result m c) (fun t _ => flushed_eq m c t) (cover)

/-- The kernel's run: the result at `rows` of the arrays the region finds, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Rows

end
-- ==== Proof.RegionEntry.lean ====
/-
  What the region finds in its six arrays, from the launch memory.

  Before the kernel is launched the program gathers the source features along the edges, scatter-adds them into the
  summed messages, scatter-adds ones into the counts, and reshapes the counts to a column and the two bias vectors
  to rows. The gather and the two scatter-adds are, operation for operation and word for word, the reference's
  stages of the same names; so the summed messages and the counts the region finds ARE the reference's, as
  functions of the feature and edge arguments, and neither is ever opened. The reshapes only re-index: entry
  (r, 0) of the counts' column is count r, entry (0, q) of a bias row is bias q.
-/
import proofs.«172255_j2070174236908_2_alg».proof.Proof.Gen.KernelIdeal.Frame
import proofs.«172255_j2070174236908_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The summed messages the region finds are the reference's, of the launch features and edges. -/
theorem summed_eq (c : Dev nD) :
    (V m c main_v13 : S50000x128.Idx → EReal)
      = Cert.ReferenceIdeal.Read.val_main_v13 (F := Ideal) (m ((c : Thread nD τ).loc main_arg0)) (m ((c : Thread nD τ).loc main_arg1)) := by
  dsimp only [V, hostOps0]
  after_results
  rfl

/-- A [50000] vector reshaped to a column, read at (r, 0), is its entry r. -/
theorem column_apply (x : S50000.Idx → EReal) (h : S50000.ShapeCasts S50000x1) (r : Fin 50000) :
    shapeCast S50000x1 x h (ix2 r 0) = x (ix1 r) :=
  shapeCast_apply x h (ix2 r 0) (ix1 r) (by
    rw [Shape.rowMajor_val_one, Shape.rowMajor_val_two]; show r.val = r.val * 1 + 0; omega)

/-- A [256] vector reshaped to a row, read at (0, q), is its entry q. -/
theorem row256_apply (x : S256.Idx → EReal) (h : S256.ShapeCasts S1x256) (q : Fin 256) :
    shapeCast S1x256 x h (ix2 0 q) = x (ix1 q) :=
  shapeCast_apply x h (ix2 0 q) (ix1 q) (by
    rw [Shape.rowMajor_val_one, Shape.rowMajor_val_two]; show q.val = 0 * 256 + q.val; omega)

/-- A [3] vector reshaped to a row, read at (0, j), is its entry j. -/
theorem row3_apply (x : S3.Idx → EReal) (h : S3.ShapeCasts S1x3) (j : Fin 3) :
    shapeCast S1x3 x h (ix2 0 j) = x (ix1 j) :=
  shapeCast_apply x h (ix2 0 j) (ix1 j) (by
    rw [Shape.rowMajor_val_one, Shape.rowMajor_val_two]; show j.val = 0 * 3 + j.val; omega)

/-- Entry (r, 0) of the counts' column the region finds is the reference's count of node r. -/
theorem counts_apply (c : Dev nD) (r : Fin 50000) :
    (V m c main_v20 : S50000x1.Idx → EReal) (ix2 r 0)
      = Cert.ReferenceIdeal.Read.val_main_v17 (F := Ideal) (m ((c : Thread nD τ).loc main_arg1)) (ix1 r) := by
  have e : ∀ h : S50000.ShapeCasts S50000x1, (V m c main_v20 : S50000x1.Idx → EReal)
      = shapeCast S50000x1 (Cert.ReferenceIdeal.Read.val_main_v17 (F := Ideal) (m ((c : Thread nD τ).loc main_arg1))) h := fun h => by
    dsimp only [V, hostOps0]
    after_results
    rfl
  rw [e Facts₀.shapeCasts_S50000_S50000x1]
  exact column_apply _ _ r

/-- Entry (0, q) of the first bias row the region finds is entry q of the launch bias. -/
theorem bias1_apply (c : Dev nD) (q : Fin 256) :
    (V m c main_v18 : S1x256.Idx → EReal) (ix2 0 q) = (m ((c : Thread nD τ).loc main_arg3) : S256.Idx → EReal) (ix1 q) := by
  have e : ∀ h : S256.ShapeCasts S1x256, (V m c main_v18 : S1x256.Idx → EReal)
      = shapeCast S1x256 (m ((c : Thread nD τ).loc main_arg3) : S256.Idx → EReal) h := fun h => by
    dsimp only [V, hostOps0]
    after_results
    rfl
  rw [e Facts₀.shapeCasts_S256_S1x256]
  exact row256_apply _ _ q

/-- Entry (0, j) of the second bias row the region finds is entry j of the launch bias. -/
theorem bias2_apply (c : Dev nD) (j : Fin 3) :
    (V m c main_v19 : S1x3.Idx → EReal) (ix2 0 j) = (m ((c : Thread nD τ).loc main_arg5) : S3.Idx → EReal) (ix1 j) := by
  have e : ∀ h : S3.ShapeCasts S1x3, (V m c main_v19 : S1x3.Idx → EReal)
      = shapeCast S1x3 (m ((c : Thread nD τ).loc main_arg5) : S3.Idx → EReal) h := fun h => by
    dsimp only [V, hostOps0]
    after_results
    rfl
  rw [e Facts₀.shapeCasts_S3_S1x3]
  exact row3_apply _ _ j

end Cert.KernelIdeal.RegionEntry

end
-- ==== Proof.RefRows.lean ====
/-
  The reference's result, read at one entry, is the same row function.

  The reference raises the counts to at least one, broadcasts them to a column and along the 128 features, divides
  the summed messages by them, multiplies by the transposed W1, adds b1 broadcast down the rows, multiplies by the
  transposed W2 and adds b2. Read at entry (r, j) — a transposed matrix at (k, q) being the matrix at (q, k) — this is
  `MeanDense.out` of row r of the summed messages and the count of node r. The summed messages and the counts
  themselves (a gather and two scatter-adds over the edges) are left as the two named stages they are: the kernel's
  program computes them by the same operations.
-/
import proofs.«172255_j2070174236908_2_alg».proof.Proof.Gen.ReferenceIdeal.Read
import proofs.«172255_j2070174236908_2_alg».proof.Proof.MeanDense

noncomputable section

open scoped BigOperators

namespace Cert.ReferenceIdeal.RefRows

open Cert.ReferenceIdeal Cert.ReferenceIdeal.Read Idealize.ShloMosaic Idealize.ShloMosaic.ValueIdx

/-- Entry (r, j) of the result from the summed messages, the counts as a vector, the weights and the biases. -/
def entry (S : S50000x128.Idx → EReal) (Cn : S50000.Idx → EReal) (W1 : S256x128.Idx → EReal) (b1 : S256.Idx → EReal)
    (W2 : S3x256.Idx → EReal) (b2 : S3.Idx → EReal) (r : Fin 50000) (j : Fin 3) : EReal :=
  MeanDense.out (fun k => S (ix2 r k)) (Cn (ix1 r)) (fun q k => W1 (ix2 q k)) (fun q => b1 (ix1 q))
    (fun j q => W2 (ix2 j q)) (fun j => b2 (ix1 j)) j

/-- The mean message of node r, feature k, as the reference computes it. -/
theorem mean_apply (x0 : (⟨S50000x128, .f32⟩ : BufTy).Contents (Elt Ideal)) (x1 : (⟨S2x800000, .i32⟩ : BufTy).Contents (Elt Ideal))
    (r : Fin 50000) (k : Fin 128) :
    val_main_v22 (F := Ideal) x0 x1 (ix2 r k)
      = MeanDense.mean (fun k => val_main_v13 (F := Ideal) x0 x1 (ix2 r k)) (val_main_v17 (F := Ideal) x1 (ix1 r)) k := by
  have e20 : idx_main_v20 (idx_main_v21 (ix2 r k)) = ix1 r := funext fun a => by match a with | ⟨0, _⟩ => rfl
  rw [val_main_v22_apply, val_main_v21_apply, val_main_v20_apply, val_main_v19_apply, val_main_v18_apply,
    val_main_cst_3_apply, e20]
  rfl

/-- Hidden unit q of node r, as the reference computes it. -/
theorem hidden_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (r : Fin 50000) (q : Fin 256) :
    val_main_v27 (F := Ideal) x0 x1 x2 x3 (ix2 r q)
      = MeanDense.hidden (fun k => val_main_v13 (F := Ideal) x0 x1 (ix2 r k)) (val_main_v17 (F := Ideal) x1 (ix1 r))
          (fun q k => x2 (ix2 q k)) (fun q => x3 (ix1 q)) q := by
  have el : ∀ k : Fin 128, lidx_main_v24 (ix2 r q) k = ix2 r k := fun k => funext fun a => by
    match a with | ⟨0, _⟩ => rfl | ⟨1, _⟩ => rfl
  have er : ∀ k : Fin 128, idx_main_v23 (ridx_main_v24 (ix2 r q) k) = ix2 q k := fun k => funext fun a => by
    match a with | ⟨0, _⟩ => rfl | ⟨1, _⟩ => rfl
  have eb : idx_main_v25 (idx_main_v26 (ix2 r q)) = ix1 q := funext fun a => by match a with | ⟨0, _⟩ => rfl
  rw [val_main_v27_apply, val_main_v24_apply, val_main_v26_apply, val_main_v25_apply, eb]
  unfold MeanDense.hidden
  refine congrArg₂ (· + ·) (Finset.sum_congr rfl fun k _ => ?_) rfl
  rw [el k, val_main_v23_apply, er k, mean_apply]

/-- Entry (r, j) of the reference's result is `entry` of the summed messages and the counts there. -/
theorem ref_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S3x256, .f32⟩ : BufTy).Contents (Elt Ideal)) (x5 : (⟨S3, .f32⟩ : BufTy).Contents (Elt Ideal))
    (r : Fin 50000) (j : Fin 3) :
    val_main_v32 (F := Ideal) x0 x1 x2 x3 x4 x5 (ix2 r j)
      = entry (val_main_v13 (F := Ideal) x0 x1) (val_main_v17 (F := Ideal) x1) x2 x3 x4 x5 r j := by
  have el : ∀ q : Fin 256, lidx_main_v29 (ix2 r j) q = ix2 r q := fun q => funext fun a => by
    match a with | ⟨0, _⟩ => rfl | ⟨1, _⟩ => rfl
  have er : ∀ q : Fin 256, idx_main_v28 (ridx_main_v29 (ix2 r j) q) = ix2 j q := fun q => funext fun a => by
    match a with | ⟨0, _⟩ => rfl | ⟨1, _⟩ => rfl
  have eb : idx_main_v30 (idx_main_v31 (ix2 r j)) = ix1 j := funext fun a => by match a with | ⟨0, _⟩ => rfl
  rw [val_main_v32_apply, val_main_v29_apply, val_main_v31_apply, val_main_v30_apply, eb]
  unfold entry MeanDense.out
  refine congrArg₂ (· + ·) (Finset.sum_congr rfl fun q _ => ?_) rfl
  rw [el q, val_main_v28_apply, er q, hidden_apply]

end Cert.ReferenceIdeal.RefRows

end
-- ==== Proof.Bridge.lean ====
/-
  The two results are one function of the launch arrays.

  The kernel's result is `Rows.entry` of the six arrays its region finds; the reference's is `RefRows.entry` of
  its summed messages, its counts and the launch weights and biases. The region's summed messages and counts are
  the reference's, its counts' column and bias rows read at (r, 0) and (0, q) are the vectors at r and q, and the
  weights reach it as launched: so at every (r, j) both are `MeanDense.out` of the same row, count, weights and
  biases. No law of arithmetic is used beyond that: the two programs add and multiply the same extended reals in
  the same grouping, and differ only in how their arrays are laid out and tiled.
-/
import proofs.«172255_j2070174236908_2_alg».proof.Proof.KernelRows
import proofs.«172255_j2070174236908_2_alg».proof.Proof.RegionEntry
import proofs.«172255_j2070174236908_2_alg».proof.Proof.RefRows

noncomputable section

namespace Cert.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- At every (r, j) the reference's entry of the launch arrays is the kernel's entry of the region's arrays. -/
theorem entries_agree (c : Dev nD) (r : Fin 50000) (j : Fin 3) :
    Cert.ReferenceIdeal.RefRows.entry
        (Cert.ReferenceIdeal.Read.val_main_v13 (F := Ideal) (m ((c : Thread nD τ).loc main_arg0)) (m ((c : Thread nD τ).loc main_arg1)))
        (Cert.ReferenceIdeal.Read.val_main_v17 (F := Ideal) (m ((c : Thread nD τ).loc main_arg1)))
        (m ((c : Thread nD τ).loc main_arg2)) (m ((c : Thread nD τ).loc main_arg3))
        (m ((c : Thread nD τ).loc main_arg4)) (m ((c : Thread nD τ).loc main_arg5)) r j
      = Rows.entry (V m c main_v13) (V m c main_v20) (V m c main_arg2) (V m c main_v18) (V m c main_arg4) (V m c main_v19) r j := by
  unfold Cert.ReferenceIdeal.RefRows.entry Rows.entry
  rw [RegionEntry.summed_eq m c, RegionEntry.counts_apply m c r, V_main_arg2 m c, V_main_arg4 m c]
  simp only [RegionEntry.bias1_apply m c, RegionEntry.bias2_apply m c]

/-- The reference's whole result of the launch arrays is the kernel's whole result. -/
theorem results_agree (c : Dev nD) :
    Cert.ReferenceIdeal.Read.val_main_v32 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      = Rows.result m c := by
  funext i
  obtain ⟨r, j, rfl⟩ : ∃ (r : Fin 50000) (j : Fin 3), i = ix2 r j := ⟨i 0, i 1, eq_ix2 i⟩
  refine (Cert.ReferenceIdeal.RefRows.ref_apply _ _ _ _ _ _ r j).trans ?_
  refine (entries_agree m c r j).trans ?_
  exact (Rows.rows_apply _ _ _ _ _ _ r j).symm

end Cert.Bridge

end
-- ==== Proof.lean ====
/-
  Scatter-mean aggregation over a graph's edges followed by two dense layers: the kernel against its reference,
  on the extended reals.

  Both programs gather the source node's features along each of the 800000 edges, scatter-add them into the
  destination nodes (the summed messages, [50000, 128]) and scatter-add ones into the destination nodes (the
  counts, [50000]) — by the same operations, literal for literal. From there the reference divides each row of
  the sums by the node's count raised to at least one, applies x ↦ x · W1ᵀ + b1 and then x ↦ x · W2ᵀ + b2 on whole
  arrays. The kernel does the same on 25 blocks of 2000 rows, one per grid point: it stages the block's rows of
  the sums and of the counts (as a column), the whole weights and the biases (as rows), divides, narrows to bf16
  and multiplies on the matrix unit into zero accumulators — a narrowing that is the identity on the extended
  reals — and writes the block's 2000 rows of the result.

  The modules: MeanDense (one output row as a function of its row of sums and its count), LibMatmulNT (a product
  with a transposed right operand read at an entry), KernelPayload (the stored block at an entry), KernelRows (the
  25 blocks are the blocks of one whole-array function, and they tile the result), RegionEntry (what the region
  finds, from the launch memory; the gather and scatter-adds kept closed), RefRows (the reference at an entry),
  Bridge (the two are one function). Below: the three runs, the trivial idealization claim, and the two runs
  side by side.
-/
import proofs.«172255_j2070174236908_2_alg».proof.Defs
import proofs.«172255_j2070174236908_2_alg».proof.Proof.Gen.Kernel
import proofs.«172255_j2070174236908_2_alg».proof.Proof.Gen.Kernel.Skeleton
import proofs.«172255_j2070174236908_2_alg».proof.Proof.Gen.Kernel.Launch
import proofs.«172255_j2070174236908_2_alg».proof.Proof.Gen.Kernel.Points
import proofs.«172255_j2070174236908_2_alg».proof.Proof.Gen.Kernel.Frame
import proofs.«172255_j2070174236908_2_alg».proof.Proof.Gen.KernelIdeal
import proofs.«172255_j2070174236908_2_alg».proof.Proof.Gen.KernelIdeal.Skeleton
import proofs.«172255_j2070174236908_2_alg».proof.Proof.Gen.KernelIdeal.Launch
import proofs.«172255_j2070174236908_2_alg».proof.Proof.Gen.KernelIdeal.Points
import proofs.«172255_j2070174236908_2_alg».proof.Proof.Gen.KernelIdeal.Frame
import proofs.«172255_j2070174236908_2_alg».proof.Proof.Gen.ReferenceIdeal
import proofs.«172255_j2070174236908_2_alg».proof.Proof.Gen.Pre_finite_inputs
import proofs.«172255_j2070174236908_2_alg».proof.Proof.Gen.KernelIdeal.Value
import proofs.«172255_j2070174236908_2_alg».proof.Proof.Gen.ReferenceIdeal.Run
import proofs.«172255_j2070174236908_2_alg».proof.Proof.Gen.ReferenceIdeal.Read
import proofs.«172255_j2070174236908_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of whole-array operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: the kernel's text read on the extended reals. -/
theorem preserves : Cert.preserves_Kernel_KernelIdeal := trivial

/-- From memories that agree on the arguments the kernel ends with its result at `Rows.result` of its launch
    memory and the reference at its last stage of the same arrays: one function (`Bridge.results_agree`). -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v32_eq, h0, h1, h2, h3, h4, h5]
  exact Cert.Bridge.results_agree m c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
